-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S16x2048 : Shape := ⟨2, ![16, 2048]⟩
abbrev S16x2048x1024 : Shape := ⟨3, ![16, 2048, 1024]⟩
abbrev S1024x1024 : Shape := ⟨2, ![1024, 1024]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2048x16x1024 .f32) (main_arg1 : IVec S16x2048 32) (main_arg2 : FVec F S16x2048x1024 .f32) (main_arg3 : FVec F S1024x1024 .f32) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S16x2048x1024 .f32 := Host.absf main_arg2
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2048x16x1024 : Shape := ⟨3, ![2048, 16, 1024]⟩
abbrev S16x2048 : Shape := ⟨2, ![16, 2048]⟩
abbrev S16x2048x1024 : Shape := ⟨3, ![16, 2048, 1024]⟩
abbrev S1024x1024 : Shape := ⟨2, ![1024, 1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x16x1024, .f32⟩
  | .hbm, ⟨1, _⟩ => ⟨S16x2048, .i32⟩
  | .hbm, ⟨2, _⟩ => ⟨S16x2048x1024, .f32⟩
  | .hbm, ⟨3, _⟩ => ⟨S1024x1024, .f32⟩
  | .hbm, ⟨4, _⟩ => ⟨S16x2048x1024, .f32⟩
  | .hbm, ⟨5, _⟩ => ⟨S16x2048x2048, .f32⟩
  | .hbm, ⟨6, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x256x2048, .f32⟩
  | .local _ .vmem, ⟨6, _⟩ => ⟨S1x256x2048, .f32⟩
  | .local _ .vmem, ⟨7, _⟩ => ⟨S1x256x1024, .f32⟩
  | .local _ .vmem, ⟨8, _⟩ => ⟨S1x256x1024, .f32⟩
  | .local _ .vmem, ⟨9, _⟩ => ⟨S2048x1024, .bf16⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S2048x16x1024_S16x2048x1024_1_0_2 : S2048x16x1024.Transposes [1, 0, 2] S16x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S16x2048x1024.size a
  hwx0_2 : ∀ i : grid0.Coords, EltTy.bits .f32 = 32 ∨ (Rect.block (s := S16x2048x1024) S1x2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .f32 = 32 ∨ (Rect.block (s := S16x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x2048x1024.size a
  hwx0_4 : ∀ i : grid0.Coords, EltTy.bits .f32 = 32 ∨ (Rect.block (s := S16x2048x1024) S1x256x1024.size (cc0_transform_4 i) (hinb0_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg2) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x16x1024 : Shape := ⟨3, ![2048, 16, 1024]⟩
abbrev S16x2048 : Shape := ⟨2, ![16, 2048]⟩
abbrev S16x2048x1024 : Shape := ⟨3, ![16, 2048, 1024]⟩
abbrev S1024x1024 : Shape := ⟨2, ![1024, 1024]⟩
abbrev S16x1024x2048 : Shape := ⟨3, ![16, 1024, 2048]⟩
abbrev S16x2048x2048 : Shape := ⟨3, ![16, 2048, 2048]⟩
abbrev S_ : Shape := ⟨0, ![]⟩
abbrev S16x2048x1 : Shape := ⟨3, ![16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S16x2048, .i32⟩
  | .hbm, ⟨2, _⟩ => ⟨S16x2048x1024, .f32⟩
  | .hbm, ⟨3, _⟩ => ⟨S1024x1024, .f32⟩
  | .hbm, ⟨4, _⟩ => ⟨S16x1024x2048, .f32⟩
  | .hbm, ⟨5, _⟩ => ⟨S16x2048x1024, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x1024, .f32⟩
  | .hbm, ⟨22, _⟩ => ⟨S16x2048x1024, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S2048x16x1024_S16x1024x2048_1_2_0 : S2048x16x1024.Transposes [1, 2, 0] S16x1024x2048
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S2048x16x1024_S16x2048x1024_1_0_2 : S2048x16x1024.Transposes [1, 0, 2] S16x2048x1024
  dot_S16x2048x1024_S1024x1024_S16x2048x1024_2_0_01_1_n_n_wf : DotDims.WF S16x2048x1024 S1024x1024 S16x2048x1024 [2] [0] [0, 1] [1] [] []
  dot_S16x2048x1024_S16x1024x2048_S16x2048x2048_2_1_1_2_0_0_wf : DotDims.WF S16x2048x1024 S16x1024x2048 S16x2048x2048 [2] [1] [1] [2] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x1024x2048_S16x2048x2048_2_1_1_2_0_0 : DotDims S16x2048x1024 S16x1024x2048 S16x2048x2048 where
  lhsContracting := [2]
  rhsContracting := [1]
  lhsNonContracting := [1]
  rhsNonContracting := [2]
  lhsBatch := [0]
  rhsBatch := [0]
  wf := dot_S16x2048x1024_S16x1024x2048_S16x2048x2048_2_1_1_2_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Pieces.lean ====
/-
  What one run of the body leaves in each buffer it stores into, as a value.

  The body has two control cases. At the first tile of a batch (case A) it first stores the value rows into the
  cache, then computes the attention tile and the output tile, the latter from the cache it has just filled.
  At every other tile (case B) it leaves the cache as the tile before left it and computes the two tiles from it.
  Each of the three buffers is written by ONE store covering it whole, so what the buffer ends holding is that
  store's payload of the blocks the body loaded.
-/
import proofs.«158563_j1271310319936_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## Case A: the first tile of a batch -/

/-- The cache ends holding the value rows' payload. -/
theorem cache_A (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S2048x1024 .bf16) (harg7 : arg7.IsWhole) (hc0 : cond0_0 i)
    (x0 : Vec F S1x256x1024 .f32) (x1 : Vec F S1024x1024 .f32) (x2 : Vec F S1x2048x1024 .f32) :
    sout0_A_0 c i arg2 harg2 arg3 harg3 arg4 harg4 arg5 harg5 arg6 harg6 arg7 harg7 hc0 x0 x1 x2 = k0_pay1 x2 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x1024) hz3]

/-- The attention tile's buffer ends holding the softmax payload of the three loaded blocks. -/
theorem attn_A (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S2048x1024 .bf16) (harg7 : arg7.IsWhole) (hc0 : cond0_0 i)
    (x0 : Vec F S1x256x1024 .f32) (x1 : Vec F S1024x1024 .f32) (x2 : Vec F S1x2048x1024 .f32) :
    out0_A_3 c i arg2 harg2 arg3 harg3 arg4 harg4 arg5 harg5 arg6 harg6 arg7 harg7 hc0 x0 x1 x2 = k0_pay3 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero hz3]
  simp only [View.readAt_eq_ld, harg2.read_unread, harg3.read_unread, harg4.read_unread,
    View.ld_unit_zero (S := S1x256x1024) hz3, View.ld_unit_zero (S := S1024x1024) hz2, View.ld_unit_zero (S := S1x2048x1024) hz3]

/-- The output tile's buffer ends holding the mixing payload, over the cache just filled. -/
theorem mix_A (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S2048x1024 .bf16) (harg7 : arg7.IsWhole) (hc0 : cond0_0 i)
    (x0 : Vec F S1x256x1024 .f32) (x1 : Vec F S1024x1024 .f32) (x2 : Vec F S1x2048x1024 .f32) :
    out0_A_4 c i arg2 harg2 arg3 harg3 arg4 harg4 arg5 harg5 arg6 harg6 arg7 harg7 hc0 x0 x1 x2 = k0_pay4 x0 x1 x2 (k0_pay1 x2) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x256x1024) hz3, View.ld_unit_zero (S := S1024x1024) hz2, View.ld_unit_zero (S := S1x2048x1024) hz3,
    View.readCov_unit_zero (S := S2048x1024) _ hz2]

/-! ## Case B: every other tile -/

/-- The attention tile's buffer ends holding the softmax payload of the three loaded blocks. -/
theorem attn_B (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S2048x1024 .bf16) (harg7 : arg7.IsWhole) (hc0 : ¬cond0_0 i)
    (x0 : Vec F S1x256x1024 .f32) (x1 : Vec F S1024x1024 .f32) (x2 : Vec F S1x2048x1024 .f32) (xs0 : Vec F S2048x1024 .bf16) :
    out0_B_3 c i arg2 harg2 arg3 harg3 arg4 harg4 arg5 harg5 arg6 harg6 arg7 harg7 hc0 x0 x1 x2 xs0 = k0_pay3 x0 x1 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread, harg4.read_unread,
    View.ld_unit_zero (S := S1x256x1024) hz3, View.ld_unit_zero (S := S1024x1024) hz2, View.ld_unit_zero (S := S1x2048x1024) hz3]

/-- The output tile's buffer ends holding the mixing payload, over the cache as the tile before left it. -/
theorem mix_B (c : Dev nD) (i : grid0.Coords) (arg2 : Memref sig .tc .vmem S1x256x1024 .f32) (harg2 : arg2.IsWhole) (arg3 : Memref sig .tc .vmem S1024x1024 .f32) (harg3 : arg3.IsWhole) (arg4 : Memref sig .tc .vmem S1x2048x1024 .f32) (harg4 : arg4.IsWhole) (arg5 : Memref sig .tc .vmem S1x256x2048 .f32) (harg5 : arg5.IsWhole) (arg6 : Memref sig .tc .vmem S1x256x1024 .f32) (harg6 : arg6.IsWhole) (arg7 : Memref sig .tc .vmem S2048x1024 .bf16) (harg7 : arg7.IsWhole) (hc0 : ¬cond0_0 i)
    (x0 : Vec F S1x256x1024 .f32) (x1 : Vec F S1024x1024 .f32) (x2 : Vec F S1x2048x1024 .f32) (xs0 : Vec F S2048x1024 .bf16) :
    out0_B_4 c i arg2 harg2 arg3 harg3 arg4 harg4 arg5 harg5 arg6 harg6 arg7 harg7 hc0 x0 x1 x2 xs0 = k0_pay4 x0 x1 x2 xs0 := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  rw [View.canon_unit_zero hz3]
  simp only [View.readAt_eq_ld, harg2.read_unread, harg3.read_unread, harg4.read_unread, harg7.read_unread,
    View.ld_unit_zero (S := S1x256x1024) hz3, View.ld_unit_zero (S := S1024x1024) hz2, View.ld_unit_zero (S := S1x2048x1024) hz3,
    View.ld_unit_zero (S := S2048x1024) hz2]

end Cert.KernelIdeal.Pieces

end
-- ==== Proof.Spec.lean ====
/-
  One row of softmax attention, over the extended reals.

  For one query row with key entries `q k` (k < 1024), a projection matrix `W k v` and the value rows
  `X s v` (s < 2048, v < 1024) of the row's batch:
    proj v   = ∑ k, q k * W k v                      the projected key
    logit s  = ∑ v, proj v * X s v                   its score against value row s
    top      = the largest score (a fold of max from -∞)
    weight s = exp (logit s - top)
    mass     = ∑ s, weight s
    attn s   = weight s / mass                       the softmax of the scores
    mix v    = ∑ s, attn s * X s v                   the attention-weighted value
  The two result arrays are `attn` and `mix` of every (batch, row): `attnArr`, `mixArr`.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The bit pattern of f32's -∞, the value both maxima start from. -/
abbrev negInf : EReal := Ideal.ofBits .f32 0xFF800000#32

section Row
variable (q : Fin 1024 → EReal) (W : Fin 1024 → Fin 1024 → EReal) (X : Fin 2048 → Fin 1024 → EReal)

def proj (v : Fin 1024) : EReal := ∑ k : Fin 1024, q k * W k v
def logit (s : Fin 2048) : EReal := ∑ v : Fin 1024, proj q W v * X s v
def top : EReal := (Finset.univ : Finset (Fin 2048)).fold max negInf (logit q W X)
def weight (s : Fin 2048) : EReal := Ideal.exp (logit q W X s - top q W X)
def mass : EReal := ∑ s : Fin 2048, weight q W X s
def attn (s : Fin 2048) : EReal := Ideal.div (weight q W X s) (mass q W X)
def mix (v : Fin 1024) : EReal := ∑ s : Fin 2048, attn q W X s * X s v

/-- A maximum started from `a` is at least `a`, so taking the maximum with `a` once more changes nothing. -/
theorem max_top : max negInf (top q W X) = top q W X :=
  max_eq_right ((Finset.le_fold_max _).mpr (Or.inl le_rfl))

end Row

section Arrays
variable (vals : (⟨3, ![2048, 16, 1024]⟩ : Shape).Idx → EReal) (keys : (⟨3, ![16, 2048, 1024]⟩ : Shape).Idx → EReal)
  (w : (⟨2, ![1024, 1024]⟩ : Shape).Idx → EReal)

/-- Row `r` of batch `b` of the keys. -/
abbrev keyRow (b : Fin 16) (r : Fin 2048) : Fin 1024 → EReal := fun k => keys (ix3 b r k)
/-- The projection matrix by coordinates. -/
abbrev wMat : Fin 1024 → Fin 1024 → EReal := fun k v => w (ix2 k v)
/-- Batch `b` of the (time-major) values: row `s`, column `v`. -/
abbrev valMat (b : Fin 16) : Fin 2048 → Fin 1024 → EReal := fun s v => vals (ix3 s b v)

/-- The attention distribution, [16, 2048, 2048]. -/
def attnArr : (⟨3, ![16, 2048, 2048]⟩ : Shape).Idx → EReal :=
  fun i => attn (keyRow keys (i 0) (i 1)) (wMat w) (valMat vals (i 0)) (i 2)
/-- The attended values, [16, 2048, 1024]. -/
def mixArr : (⟨3, ![16, 2048, 1024]⟩ : Shape).Idx → EReal :=
  fun i => mix (keyRow keys (i 0) (i 1)) (wMat w) (valMat vals (i 0)) (i 2)

end Arrays

end Cert.Attn

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.LibDotRowT.lean ====
/-
  A matrix product with ONE contracted axis against a TRANSPOSED right operand, read at an index, as a sum over the
  contracted coordinate.

  For dimension numbers `d` of an [M, K] by [N, K] product into [M, N] — both operands contracted on their
  second axis — the sum over the contraction index set of `L (d.lhsIdx (p, f) k) * R (d.rhsIdx (p, f) k)` is
  `∑ k : Fin K, L (p, k) * R (f, k)`: the contraction index is its one coordinate, the left operand's row is the
  output's row and the right operand's ROW the output's column.
-/
import Idealize.ShloMosaic.Lib.ValueIdx
import Idealize.ShloMosaic.PureOps.Ideal.Laws

noncomputable section

namespace Idealize.ShloMosaic.DotRowT

open Idealize.ShloMosaic Idealize.ShloMosaic.ValueIdx

variable {M K N : Nat}

/-- The contraction's sum over its index set is the sum over the contracted coordinate. -/
theorem sum_contr (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 0).val = (j 1).val)
    (L : (⟨2, ![M, K]⟩ : Shape).Idx → EReal) (R : (⟨2, ![N, K]⟩ : Shape).Idx → EReal) (p : Fin M) (f : Fin N) :
    ∑ k : d.contr.Idx, L (d.lhsIdx (ix2 p f) k) * R (d.rhsIdx (ix2 p f) k) = ∑ k : Fin K, L (ix2 p k) * R (ix2 f k) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 f k := by
    funext a; apply Fin.ext
    match a with
    | ⟨0, _⟩ => exact h1 _ _
    | ⟨1, _⟩ =>
      show (d.rhsIdx (ix2 p f) ((contrEquiv1 d K hrank hsize).symm k) 1).val = k.val
      rw [d.rhsIdx_val_of_single hr]
      exact contrEquiv1_symm_val d K hrank hsize k
  rw [el, er]

end Idealize.ShloMosaic.DotRowT

end
-- ==== Proof.LibColumnCast.lean ====
/-
  A vector `[a]` reshaped to a column `[a, 1]` reads, at `(i, u)`, the vector at `i`.
-/
import Idealize.ShloMosaic.Lib.ValueLayout
import Idealize.ShloMosaic.Lib.Pipeline.Value

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  The kernel body's arithmetic, read at an index, over the extended reals.

  At one grid point the body holds a tile of 256 key rows `x0` [1, 256, 1024], the projection matrix `x1`
  [1024, 1024] and the batch's value rows `x2` [1, 2048, 1024]. Its stores write
    - into the attention tile: row p, column s  =  the softmax weight `attn` of key row p against value row s,
    - into the output tile: row p, column v  =  ∑ s, attn p s * (cached values) s v,
    - into the cache (first tile of a batch only): the value rows themselves (a change of float format is the
      identity over the extended reals).
  Each intermediate of the body is named here in the order the body computes it and read at an index:
  the two matrix products as sums over the contracted coordinate, the row maximum as a fold of max,
  the row sum as a sum, the keep-dims reshapes and broadcasts as reads of the column.
-/
import proofs.«158563_j1271310319936_2_alg».proof.Proof.Gen.KernelIdeal.Skeleton
import proofs.«158563_j1271310319936_2_alg».proof.Proof.Spec
import proofs.«158563_j1271310319936_2_alg».proof.Proof.LibDotRow
import proofs.«158563_j1271310319936_2_alg».proof.Proof.LibDotRowT
import proofs.«158563_j1271310319936_2_alg».proof.Proof.LibColumnCast
import proofs.«158563_j1271310319936_2_alg».proof.Proof.LibColumnBroadcast
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Attn

variable (x0 : FVec Ideal S1x256x1024 .f32) (x1 : FVec Ideal S1024x1024 .f32) (x2 : FVec Ideal S1x2048x1024 .f32)

/-- Key row `p` of the tile. -/
abbrev qRow (p : Fin 256) : Fin 1024 → EReal := fun k => x0 (ix3 (0 : Fin 1) p k)
/-- The projection matrix by coordinates. -/
abbrev wBlk : Fin 1024 → Fin 1024 → EReal := fun k v => x1 (ix2 k v)
/-- The batch's value rows by coordinates. -/
abbrev vBlk : Fin 2048 → Fin 1024 → EReal := fun s v => x2 (ix3 (0 : Fin 1) s v)

/-! ## The intermediates, in the body's order -/

def keyTile : FVec Ideal S256x1024 .f32 := shapeCast S256x1024 x0 shapeCasts_S1x256x1024_S256x1024
def valTile : FVec Ideal S2048x1024 .f32 := shapeCast S2048x1024 x2 shapeCasts_S1x2048x1024_S2048x1024
def projTile : FVec Ideal S256x1024 .f32 :=
  matmul dot_S256x1024_S1024x1024_S256x1024_1_0_0_1_n_n (some .fp32) (keyTile x0) x1 (constant S256x1024 .f32 0x00000000#32)
def logitTile : FVec Ideal S256x2048 .f32 :=
  matmul dot_S256x1024_S2048x1024_S256x2048_1_1_0_0_n_n (some .fp32) (projTile x0 x1) (valTile x2) (constant S256x2048 .f32 0x00000000#32)
def topCol : FVec Ideal S256 .f32 :=
  multiReduction .maximumf [1] S256 (logitTile x0 x1 x2) 0xFF800000#32 reduces_S256x2048_S256 (.inl rfl) rfl
def weightTile : FVec Ideal S256x2048 .f32 :=
  exp (subf (logitTile x0 x1 x2) (broadcastTo S256x2048 (shapeCast S256x1 (topCol x0 x1 x2) shapeCasts_S256_S256x1) broadcasts_S256x1_S256x2048))
def massCol : FVec Ideal S256 .f32 :=
  multiReduction .add [1] S256 (weightTile x0 x1 x2) 0x00000000#32 reduces_S256x2048_S256 (.inl rfl) rfl
def attnTile : FVec Ideal S256x2048 .f32 :=
  divf (weightTile x0 x1 x2) (broadcastTo S256x2048 (shapeCast S256x1 (massCol x0 x1 x2) shapeCasts_S256_S256x1) broadcasts_S256x1_S256x2048)

/-- The output tile before its leading unit axis is put back: the weights against the cached rows `xs`. -/
def mixTile (xs : FVec Ideal S2048x1024 .bf16) : FVec Ideal S256x1024 .f32 :=
  matmul dot_S256x2048_S2048x1024_S256x1024_1_0_0_1_n_n none (truncf .bf16 (attnTile x0 x1 x2) bitsLt_bf16_f32) xs (constant S256x1024 .f32 0x00000000#32)

/-- The body's softmax payload is the last of the first group, -/
theorem pay2_eq : k0_pay2 (F := Ideal) x0 x1 x2 = attnTile x0 x1 x2 := rfl
/-- the attention tile's store writes it under a leading unit axis, -/
theorem pay3_eq : k0_pay3 (F := Ideal) x0 x1 x2 = shapeCast S1x256x2048 (attnTile x0 x1 x2) shapeCasts_S256x2048_S1x256x2048 := rfl
/-- and the output tile's store writes the mixing product under one. -/
theorem pay4_eq (xs : FVec Ideal S2048x1024 .bf16) :
    k0_pay4 (F := Ideal) x0 x1 x2 xs = shapeCast S1x256x1024 (mixTile x0 x1 x2 xs) shapeCasts_S256x1024_S1x256x1024 := rfl

/-! ## Where each product's operand indices sit -/

theorem projDot_lhs0 (j : S256x1024.Idx) (k : dot_S256x1024_S1024x1024_S256x1024_1_0_0_1_n_n.contr.Idx) :
    (dot_S256x1024_S1024x1024_S256x1024_1_0_0_1_n_n.lhsIdx j k 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem projDot_rhs1 (j : S256x1024.Idx) (k : dot_S256x1024_S1024x1024_S256x1024_1_0_0_1_n_n.contr.Idx) :
    (dot_S256x1024_S1024x1024_S256x1024_1_0_0_1_n_n.rhsIdx j k 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem logitDot_lhs0 (j : S256x2048.Idx) (k : dot_S256x1024_S2048x1024_S256x2048_1_1_0_0_n_n.contr.Idx) :
    (dot_S256x1024_S2048x1024_S256x2048_1_1_0_0_n_n.lhsIdx j k 0).val = (j 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem logitDot_rhs0 (j : S256x2048.Idx) (k : dot_S256x1024_S2048x1024_S256x2048_1_1_0_0_n_n.contr.Idx) :
    (dot_S256x1024_S2048x1024_S256x2048_1_1_0_0_n_n.rhsIdx j k 0).val = (j 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem mixDot_lhs0 (j : S256x1024.Idx) (k : dot_S256x2048_S2048x1024_S256x1024_1_0_0_1_n_n.contr.Idx) :
    (dot_S256x2048_S2048x1024_S256x1024_1_0_0_1_n_n.lhsIdx j k 0).val = (j 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mixDot_rhs1 (j : S256x1024.Idx) (k : dot_S256x2048_S2048x1024_S256x1024_1_0_0_1_n_n.contr.Idx) :
    (dot_S256x2048_S2048x1024_S256x1024_1_0_0_1_n_n.rhsIdx j k 1).val = (j 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Row `p` of the [256, 2048] tile with column `s` put back is the index (p, s). -/
theorem lift_eq (p : Fin 256) (s : Fin 2048) : reduces_S256x2048_S256.lift (ix1 p) s = ix2 p s := by
  funext a; apply Fin.ext
  match a with
  | ⟨0, _⟩ => rfl
  | ⟨1, _⟩ => rfl

/-! ## Each intermediate at an index -/

theorem keyTile_apply (p : Fin 256) (k : Fin 1024) : keyTile x0 (ix2 p k) = x0 (ix3 (0 : Fin 1) p k) :=
  shapeCast_1ab_ab_apply x0 _ p k

theorem valTile_apply (s : Fin 2048) (v : Fin 1024) : valTile x2 (ix2 s v) = x2 (ix3 (0 : Fin 1) s v) :=
  shapeCast_1ab_ab_apply x2 _ s v

theorem projTile_apply (p : Fin 256) (v : Fin 1024) : projTile x0 x1 (ix2 p v) = proj (qRow x0 p) (wBlk x1) v := by
  unfold projTile
  refine (Ideal.matmul_constant_zero_apply dot_S256x1024_S1024x1024_S256x1024_1_0_0_1_n_n (some .fp32) (keyTile x0) x1 (ix2 p v)).trans ?_
  refine (DotRow.sum_contr dot_S256x1024_S1024x1024_S256x1024_1_0_0_1_n_n rfl rfl rfl rfl projDot_lhs0 projDot_rhs1
    (keyTile x0) x1 p v).trans ?_
  unfold proj
  exact Finset.sum_congr rfl fun k _ => by rw [keyTile_apply]

theorem logitTile_apply (p : Fin 256) (s : Fin 2048) :
    logitTile x0 x1 x2 (ix2 p s) = logit (qRow x0 p) (wBlk x1) (vBlk x2) s := by
  unfold logitTile
  refine (Ideal.matmul_constant_zero_apply dot_S256x1024_S2048x1024_S256x2048_1_1_0_0_n_n (some .fp32) (projTile x0 x1) (valTile x2) (ix2 p s)).trans ?_
  refine (DotRowT.sum_contr dot_S256x1024_S2048x1024_S256x2048_1_1_0_0_n_n rfl rfl rfl rfl logitDot_lhs0 logitDot_rhs0
    (projTile x0 x1) (valTile x2) p s).trans ?_
  unfold logit
  exact Finset.sum_congr rfl fun v _ => by rw [projTile_apply, valTile_apply]

theorem topCol_apply (p : Fin 256) : topCol x0 x1 x2 (ix1 p) = top (qRow x0 p) (wBlk x1) (vBlk x2) := by
  unfold topCol
  refine (Ideal.multiReduction_maximumf_single (logitTile x0 x1 x2) 0xFF800000#32 reduces_S256x2048_S256 (.inl rfl) rfl (ix1 p)).trans ?_
  unfold top
  refine congrArg (fun f => (Finset.univ : Finset (Fin 2048)).fold max negInf f) (funext fun s => ?_)
  exact (congrArg (logitTile x0 x1 x2) (lift_eq p s)).trans (logitTile_apply x0 x1 x2 p s)

theorem weightTile_apply (p : Fin 256) (s : Fin 2048) :
    weightTile x0 x1 x2 (ix2 p s) = weight (qRow x0 p) (wBlk x1) (vBlk x2) s := by
  unfold weightTile weight
  show Ideal.exp (logitTile x0 x1 x2 (ix2 p s)
    - broadcastTo S256x2048 (shapeCast S256x1 (topCol x0 x1 x2) shapeCasts_S256_S256x1) broadcasts_S256x1_S256x2048 (ix2 p s)) = _
  rw [broadcastTo_a1_ab_apply, shapeCast_a_a1_apply, logitTile_apply, topCol_apply]

theorem massCol_apply (p : Fin 256) : massCol x0 x1 x2 (ix1 p) = mass (qRow x0 p) (wBlk x1) (vBlk x2) := by
  unfold massCol
  refine (Ideal.multiReduction_add_single (weightTile x0 x1 x2) 0x00000000#32 reduces_S256x2048_S256 (.inl rfl) rfl (ix1 p)).trans ?_
  unfold mass
  exact Finset.sum_congr rfl fun s _ => (congrArg (weightTile x0 x1 x2) (lift_eq p s)).trans (weightTile_apply x0 x1 x2 p s)

theorem attnTile_apply (p : Fin 256) (s : Fin 2048) :
    attnTile x0 x1 x2 (ix2 p s) = attn (qRow x0 p) (wBlk x1) (vBlk x2) s := by
  unfold attnTile attn
  show Ideal.div (weightTile x0 x1 x2 (ix2 p s))
    (broadcastTo S256x2048 (shapeCast S256x1 (massCol x0 x1 x2) shapeCasts_S256_S256x1) broadcasts_S256x1_S256x2048 (ix2 p s)) = _
  rw [broadcastTo_a1_ab_apply, shapeCast_a_a1_apply, weightTile_apply, massCol_apply]

/-! ## The three stores' payloads at an index -/

/-- The cache store: the value rows themselves. -/
theorem pay1_apply (s : Fin 2048) (v : Fin 1024) : k0_pay1 (F := Ideal) x2 (ix2 s v) = x2 (ix3 (0 : Fin 1) s v) := by
  unfold k0_pay1
  show shapeCast S2048x1024 (truncf .bf16 (shapeCast S2048x1024 x2 shapeCasts_S1x2048x1024_S2048x1024) bitsLt_bf16_f32)
    shapeCasts_S2048x1024_S2048x1024 (ix2 s v) = _
  rw [shapeCast_self]
  exact shapeCast_1ab_ab_apply x2 _ s v

/-- The attention tile's store: the softmax weight of key row `p` against value row `s`. -/
theorem pay3_apply (u : Fin 1) (p : Fin 256) (s : Fin 2048) :
    k0_pay3 (F := Ideal) x0 x1 x2 (ix3 u p s) = attn (qRow x0 p) (wBlk x1) (vBlk x2) s := by
  rw [pay3_eq]
  exact (shapeCast_ab_1ab_apply (attnTile x0 x1 x2) _ u p s).trans (attnTile_apply x0 x1 x2 p s)

/-- The output tile's store: the weights of key row `p` against the cached rows `xs`, column `v`. -/
theorem mixTile_apply (xs : FVec Ideal S2048x1024 .bf16) (p : Fin 256) (v : Fin 1024) :
    mixTile x0 x1 x2 xs (ix2 p v) = ∑ s : Fin 2048, attn (qRow x0 p) (wBlk x1) (vBlk x2) s * xs (ix2 s v) := by
  unfold mixTile
  refine (Ideal.matmul_constant_zero_apply dot_S256x2048_S2048x1024_S256x1024_1_0_0_1_n_n none
    (truncf .bf16 (attnTile x0 x1 x2) bitsLt_bf16_f32) xs (ix2 p v)).trans ?_
  refine (DotRow.sum_contr dot_S256x2048_S2048x1024_S256x1024_1_0_0_1_n_n rfl rfl rfl rfl mixDot_lhs0 mixDot_rhs1
    (truncf .bf16 (attnTile x0 x1 x2) bitsLt_bf16_f32) xs p v).trans ?_
  refine Finset.sum_congr rfl fun s _ => ?_
  show attnTile x0 x1 x2 (ix2 p s) * _ = _
  rw [attnTile_apply]

theorem pay4_apply (xs : FVec Ideal S2048x1024 .bf16) (u : Fin 1) (p : Fin 256) (v : Fin 1024) :
    k0_pay4 (F := Ideal) x0 x1 x2 xs (ix3 u p v)
      = ∑ s : Fin 2048, attn (qRow x0 p) (wBlk x1) (vBlk x2) s * xs (ix2 s v) := by
  rw [pay4_eq]
  exact (shapeCast_ab_1ab_apply (mixTile x0 x1 x2 xs) _ u p v).trans (mixTile_apply x0 x1 x2 xs p v)

/-! ## From a tile to the arrays: equal rows give equal results -/

section Point
variable (keys : (⟨3, ![16, 2048, 1024]⟩ : Shape).Idx → EReal) (w : (⟨2, ![1024, 1024]⟩ : Shape).Idx → EReal)
  (vals : (⟨3, ![2048, 16, 1024]⟩ : Shape).Idx → EReal)

/-- If tile row `p` is row `r` of batch `b` of the keys, the matrix block is the projection matrix and the value block
    is batch `b` of the values, the tile's softmax row is the arrays' softmax row. -/
theorem attn_point (b : Fin 16) (r : Fin 2048) (p : Fin 256)
    (h0 : ∀ k, x0 (ix3 (0 : Fin 1) p k) = keys (ix3 b r k)) (h1 : ∀ k v, x1 (ix2 k v) = w (ix2 k v))
    (h2 : ∀ s v, x2 (ix3 (0 : Fin 1) s v) = vals (ix3 s b v)) (s : Fin 2048) :
    attn (qRow x0 p) (wBlk x1) (vBlk x2) s = attn (keyRow keys b r) (wMat w) (valMat vals b) s := by
  have e0 : qRow x0 p = keyRow keys b r := funext h0
  have e1 : wBlk x1 = wMat w := funext fun k => funext fun v => h1 k v
  have e2 : vBlk x2 = valMat vals b := funext fun s => funext fun v => h2 s v
  rw [e0, e1, e2]

/-- With the cache holding batch `b` of the values as well, the tile's mixed row is the arrays' mixed row. -/
theorem mix_point (xs : FVec Ideal S2048x1024 .bf16) (b : Fin 16) (r : Fin 2048) (p : Fin 256)
    (h0 : ∀ k, x0 (ix3 (0 : Fin 1) p k) = keys (ix3 b r k)) (h1 : ∀ k v, x1 (ix2 k v) = w (ix2 k v))
    (h2 : ∀ s v, x2 (ix3 (0 : Fin 1) s v) = vals (ix3 s b v)) (hs : ∀ s v, xs (ix2 s v) = vals (ix3 s b v)) (v : Fin 1024) :
    ∑ s : Fin 2048, attn (qRow x0 p) (wBlk x1) (vBlk x2) s * xs (ix2 s v) = mix (keyRow keys b r) (wMat w) (valMat vals b) v := by
  unfold mix
  exact Finset.sum_congr rfl fun s _ => by rw [attn_point x0 x1 x2 keys w vals b r p h0 h1 h2 s, hs s v]

end Point

end Cert.KernelIdeal.Body

end
-- ==== Proof.Whole.lean ====
/-
  From the tiles to the two result arrays.

  The grid has 16 × 8 points; point t works on batch t / 8 and on key rows 256 · (t % 8) … 256 · (t % 8) + 255.
  At a point the key window holds those rows of the keys, the matrix window the projection matrix, and the value
  window batch t / 8 of the values (the host's transpose of the time-major array read at (b, s, v) is the array
  at (s, b, v)). The cache is filled at the first point of a batch and kept until the next batch begins, so after
  EVERY point it holds the batch's value rows: by induction on the point. Hence what a point writes back to the
  attention array and to the output array is its block of `attnArr` and `mixArr`; the blocks cover both arrays
  (index (b, r, ·) lies in the block of point 8 · b + r / 256), so the arrays end holding `attnArr` and `mixArr`.
-/
import proofs.«158563_j1271310319936_2_alg».proof.Proof.Gen.KernelIdeal.Value
import proofs.«158563_j1271310319936_2_alg».proof.Proof.Pieces
import proofs.«158563_j1271310319936_2_alg».proof.Proof.Body
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## Where each window's block sits -/

/-- The printed index maps over the grid: batch t / 8, row tile t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = t.val % 8 ∧ win0_4.index t (2 : Fin 3) = 0 :=
  (by decide +kernel : ∀ t : Fin grid0.N, _)

/-- The value window's array is the host's transpose of the time-major values. -/
theorem V_v0 (c : Dev nD) : (V m c main_v0 : S16x2048x1024.Idx → EReal)
    = transpose S16x2048x1024 [1, 0, 2] (m ((c : Thread nD τ).loc main_arg0)) transposes_S2048x16x1024_S16x2048x1024_1_0_2 := by
  dsimp only [Gen.V, Gen.hostOps0]; after_results

/-- … which at (b, s, v) is the values at (s, b, v). -/
theorem V_v0_apply (c : Dev nD) (b : Fin 16) (s : Fin 2048) (v : Fin 1024) :
    (V m c main_v0 : S16x2048x1024.Idx → EReal) (ix3 b s v) = m ((c : Thread nD τ).loc main_arg0) (ix3 s b v) :=
  (congrFun (V_v0 m c) (ix3 b s v)).trans
    (transpose_apply [1, 0, 2] _ transposes_S2048x16x1024_S16x2048x1024_1_0_2 (ix3 b s v) (ix3 s b v) (fun a => match a with
      | ⟨0, _⟩ => rfl
      | ⟨1, _⟩ => rfl
      | ⟨2, _⟩ => rfl))

/-- The key window at point `t`: tile row `p` is key row 256 · (t % 8) + p of batch t / 8. -/
theorem keyBlock (c : Dev nD) (t : Fin cfg0.N) (b : Fin 16) (r : Fin 2048) (p : Fin 256) (hb : b.val = t.val / 8)
    (hr : r.val = 256 * (t.val % 8) + p.val) (k : Fin 1024) :
    (iblk m c 0 t : FVec Ideal S1x256x1024 .f32) (ix3 (0 : Fin 1) p k) = m ((c : Thread nD τ).loc main_arg2) (ix3 b r k) := by
  obtain ⟨e0, e1, e2, -⟩ := idx_facts t
  unfold iblk
  rw [View.read_apply]
  show V m c main_arg2 _ = _
  rw [V_main_arg2]
  refine congrArg _ (funext fun a => Fin.ext ?_)
  match a with
  | ⟨0, _⟩ => show win0_0.index t (0 : Fin 3) * 1 + 1 * 0 = b.val; omega
  | ⟨1, _⟩ => show win0_0.index t (1 : Fin 3) * 256 + 1 * p.val = r.val; omega
  | ⟨2, _⟩ => show win0_0.index t (2 : Fin 3) * 1024 + 1 * k.val = k.val; omega

/-- The matrix window at every point is the projection matrix. -/
theorem matBlock (c : Dev nD) (t : Fin cfg0.N) (k v : Fin 1024) :
    (iblk m c 1 t : FVec Ideal S1024x1024 .f32) (ix2 k v) = m ((c : Thread nD τ).loc main_arg3) (ix2 k v) := by
  obtain ⟨-, -, -, e0, e1, -⟩ := idx_facts t
  unfold iblk
  rw [View.read_apply]
  show V m c main_arg3 _ = _
  rw [V_main_arg3]
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * v.val = v.val; omega

/-- The value window at point `t`: row `s`, column `v` is the values at (s, t / 8, v). -/
theorem valBlock (c : Dev nD) (t : Fin cfg0.N) (b : Fin 16) (hb : b.val = t.val / 8) (s : Fin 2048) (v : Fin 1024) :
    (iblk m c 2 t : FVec Ideal S1x2048x1024 .f32) (ix3 (0 : Fin 1) s v) = m ((c : Thread nD τ).loc main_arg0) (ix3 s b v) := by
  obtain ⟨-, -, -, -, -, e0, e1, e2, -⟩ := idx_facts t
  unfold iblk
  rw [View.read_apply]
  show (V m c main_v0 : S16x2048x1024.Idx → EReal) _ = _
  refine (congrArg (V m c main_v0 : S16x2048x1024.Idx → EReal) (funext fun a => Fin.ext ?_)).trans (V_v0_apply m c b s v)
  match a with
  | ⟨0, _⟩ => show win0_2.index t (0 : Fin 3) * 1 + 1 * 0 = b.val; omega
  | ⟨1, _⟩ => show win0_2.index t (1 : Fin 3) * 2048 + 1 * s.val = s.val; omega
  | ⟨2, _⟩ => show win0_2.index t (2 : Fin 3) * 1024 + 1 * v.val = v.val; omega

/-! ## What the run leaves after a point, as payloads of the point's blocks -/

/-- The attention tile after point `t`, in either case. -/
theorem attnAt (c : Dev nD) (t : Fin cfg0.N) :
    (outsAt0 m c t.val t.isLt).1 = k0_pay3 (F := Ideal) (iblk m c 0 t) (iblk m c 1 t) (iblk m c 2 t) := by
  by_cases h0 : t.val % 8 = 0
  · rw [outsAt0_A m c t h0]
    dsimp only
    exact Pieces.attn_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)
  · rw [outsAt0_B m c t h0]
    dsimp only
    exact Pieces.attn_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2

/-- The cache after the first point of a batch: the value window's rows. -/
theorem cacheAt_A (c : Dev nD) (t : Fin cfg0.N) (h0 : t.val % 8 = 0) :
    (outsAt0 m c t.val t.isLt).2.2 = k0_pay1 (F := Ideal) (iblk m c 2 t) := by
  rw [outsAt0_A m c t h0]
  dsimp only
  exact Pieces.cache_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)

/-- The cache after any other point: what the point before left. -/
theorem cacheAt_B (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  dsimp only
  rfl

/-- The output tile after the first point of a batch: mixed over the cache just filled. -/
theorem mixAt_A (c : Dev nD) (t : Fin cfg0.N) (h0 : t.val % 8 = 0) :
    (outsAt0 m c t.val t.isLt).2.1 = k0_pay4 (F := Ideal) (iblk m c 0 t) (iblk m c 1 t) (iblk m c 2 t) (k0_pay1 (F := Ideal) (iblk m c 2 t)) := by
  rw [outsAt0_A m c t h0]
  dsimp only
  exact Pieces.mix_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)

/-- The output tile after any other point: mixed over the cache the point before left. -/
theorem mixAt_B (c : Dev nD) (t : Fin cfg0.N) (h0 : ¬t.val % 8 = 0) :
    (outsAt0 m c t.val t.isLt).2.1 = k0_pay4 (F := Ideal) (iblk m c 0 t) (iblk m c 1 t) (iblk m c 2 t)
      (outsAt0 m c (t.val - 1) (Nat.lt_of_le_of_lt (Nat.sub_le _ _) t.isLt)).2.2 := by
  rw [outsAt0_B m c t h0]
  dsimp only
  exact Pieces.mix_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.2

/-! ## The cache holds the batch's value rows after every point -/

theorem cache_eq (c : Dev nD) : ∀ (n : ℕ) (h : n < cfg0.N) (b : Fin 16) (hb : b.val = n / 8) (s : Fin 2048) (v : Fin 1024),
    ((outsAt0 m c n h).2.2 : FVec Ideal S2048x1024 .bf16) (ix2 s v) = m ((c : Thread nD τ).loc main_arg0) (ix3 s b v)
  | 0, h, b, hb, s, v =>
    (congrFun (cacheAt_A m c ⟨0, h⟩ rfl) (ix2 s v)).trans
      ((Body.pay1_apply (iblk m c 2 ⟨0, h⟩) s v).trans (valBlock m c ⟨0, h⟩ b hb s v))
  | n + 1, h, b, hb, s, v => by
    by_cases h0 : (n + 1) % 8 = 0
    · exact (congrFun (cacheAt_A m c ⟨n + 1, h⟩ h0) (ix2 s v)).trans
        ((Body.pay1_apply (iblk m c 2 ⟨n + 1, h⟩) s v).trans (valBlock m c ⟨n + 1, h⟩ b hb s v))
    · refine (congrFun (cacheAt_B m c ⟨n + 1, h⟩ h0) (ix2 s v)).trans ?_
      exact cache_eq c n (Nat.lt_of_succ_lt h) b (by omega) s v

/-! ## What a point writes back is its block of the two result functions -/

/-- Row `p`, column `s` of point `t`'s attention block is the array index (t / 8, 256 · (t % 8) + p, s). -/
theorem emb3 (t : Fin cfg0.N) (u : Fin 1) (p : Fin 256) (s : Fin 2048) (b : Fin 16) (r : Fin 2048)
    (hb : b.val = t.val / 8) (hr : r.val = 256 * (t.val % 8) + p.val) :
    ((cfg0.win 3).blk t).view.emb (ix3 u p s) = ix3 b r s := by
  obtain ⟨-, -, -, -, -, -, -, -, e0, e1, e2, -⟩ := idx_facts t
  have hu := u.isLt
  refine funext fun a => Fin.ext ?_
  match a with
  | ⟨0, _⟩ => show win0_3.index t (0 : Fin 3) * 1 + 1 * u.val = b.val; omega
  | ⟨1, _⟩ => show win0_3.index t (1 : Fin 3) * 256 + 1 * p.val = r.val; omega
  | ⟨2, _⟩ => show win0_3.index t (2 : Fin 3) * 2048 + 1 * s.val = s.val; omega

/-- The same for the output block, column `v`. -/
theorem emb4 (t : Fin cfg0.N) (u : Fin 1) (p : Fin 256) (v : Fin 1024) (b : Fin 16) (r : Fin 2048)
    (hb : b.val = t.val / 8) (hr : r.val = 256 * (t.val % 8) + p.val) :
    ((cfg0.win 4).blk t).view.emb (ix3 u p v) = ix3 b r v := by
  obtain ⟨-, -, -, -, -, -, -, -, -, -, -, e0, e1, e2⟩ := idx_facts t
  have hu := u.isLt
  refine funext fun a => Fin.ext ?_
  match a with
  | ⟨0, _⟩ => show win0_4.index t (0 : Fin 3) * 1 + 1 * u.val = b.val; omega
  | ⟨1, _⟩ => show win0_4.index t (1 : Fin 3) * 256 + 1 * p.val = r.val; omega
  | ⟨2, _⟩ => show win0_4.index t (2 : Fin 3) * 1024 + 1 * v.val = v.val; omega

/-- Point `t` writes back its block of the attention distribution. -/
theorem attn_flushed (c : Dev nD) (t : Fin cfg0.N) :
    (dats m 0 c).flushed 3 t = ((cfg0.win 3).blk t).view.read (Elt Ideal) (attnArr (m ((c : Thread nD τ).loc main_arg0)) (m ((c : Thread nD τ).loc main_arg2)) (m ((c : Thread nD τ).loc main_arg3))) := by
  have hN : t.val < 128 := lt_of_lt_of_eq t.isLt (show cfg0.N = 128 from N_0)
  rw [Value.flushed3, attnAt m c t]
  refine funext fun (y : S1x256x2048.Idx) => ?_
  obtain ⟨u, p, s, rfl⟩ : ∃ (u : Fin 1) (p : Fin 256) (s : Fin 2048), y = ix3 u p s := ⟨y 0, y 1, y 2, eq_ix3 y⟩
  obtain ⟨b, hb⟩ : ∃ b : Fin 16, b.val = t.val / 8 := ⟨⟨t.val / 8, by omega⟩, rfl⟩
  obtain ⟨r, hr⟩ : ∃ r : Fin 2048, r.val = 256 * (t.val % 8) + p.val :=
    ⟨⟨256 * (t.val % 8) + p.val, by have := p.isLt; omega⟩, rfl⟩
  rw [View.read_apply, emb3 t u p s b r hb hr]
  show k0_pay3 (F := Ideal) (iblk m c 0 t) (iblk m c 1 t) (iblk m c 2 t) (ix3 u p s)
    = attn (keyRow (m ((c : Thread nD τ).loc main_arg2)) b r) (wMat (m ((c : Thread nD τ).loc main_arg3))) (valMat (m ((c : Thread nD τ).loc main_arg0)) b) s
  exact (Body.pay3_apply (iblk m c 0 t) (iblk m c 1 t) (iblk m c 2 t) u p s).trans
    (Body.attn_point (iblk m c 0 t) (iblk m c 1 t) (iblk m c 2 t) (m ((c : Thread nD τ).loc main_arg2)) (m ((c : Thread nD τ).loc main_arg3)) (m ((c : Thread nD τ).loc main_arg0)) b r p
      (keyBlock m c t b r p hb hr) (matBlock m c t) (valBlock m c t b hb) s)

/-- Point `t` writes back its block of the attended values: the cache holds the batch's value rows, filled at this
    point (the first of its batch) or kept from the point before. -/
theorem mix_flushed (c : Dev nD) (t : Fin cfg0.N) :
    (dats m 0 c).flushed 4 t = ((cfg0.win 4).blk t).view.read (Elt Ideal) (mixArr (m ((c : Thread nD τ).loc main_arg0)) (m ((c : Thread nD τ).loc main_arg2)) (m ((c : Thread nD τ).loc main_arg3))) := by
  have hN : t.val < 128 := lt_of_lt_of_eq t.isLt (show cfg0.N = 128 from N_0)
  rw [Value.flushed4]
  by_cases h0 : t.val % 8 = 0
  · rw [mixAt_A m c t h0]
    refine funext fun (y : S1x256x1024.Idx) => ?_
    obtain ⟨u, p, v, rfl⟩ : ∃ (u : Fin 1) (p : Fin 256) (v : Fin 1024), y = ix3 u p v := ⟨y 0, y 1, y 2, eq_ix3 y⟩
    obtain ⟨b, hb⟩ : ∃ b : Fin 16, b.val = t.val / 8 := ⟨⟨t.val / 8, by omega⟩, rfl⟩
    obtain ⟨r, hr⟩ : ∃ r : Fin 2048, r.val = 256 * (t.val % 8) + p.val :=
      ⟨⟨256 * (t.val % 8) + p.val, by have := p.isLt; omega⟩, rfl⟩
    rw [View.read_apply, emb4 t u p v b r hb hr]
    show k0_pay4 (F := Ideal) (iblk m c 0 t) (iblk m c 1 t) (iblk m c 2 t) (k0_pay1 (F := Ideal) (iblk m c 2 t)) (ix3 u p v)
      = mix (keyRow (m ((c : Thread nD τ).loc main_arg2)) b r) (wMat (m ((c : Thread nD τ).loc main_arg3))) (valMat (m ((c : Thread nD τ).loc main_arg0)) b) v
    exact (Body.pay4_apply (iblk m c 0 t) (iblk m c 1 t) (iblk m c 2 t) (k0_pay1 (F := Ideal) (iblk m c 2 t)) u p v).trans
      (Body.mix_point (iblk m c 0 t) (iblk m c 1 t) (iblk m c 2 t) (m ((c : Thread nD τ).loc main_arg2)) (m ((c : Thread nD τ).loc main_arg3)) (m ((c : Thread nD τ).loc main_arg0))
        (k0_pay1 (F := Ideal) (iblk m c 2 t)) b r p
        (keyBlock m c t b r p hb hr) (matBlock m c t) (valBlock m c t b hb)
        (fun s v' => (Body.pay1_apply (iblk m c 2 t) s v').trans (valBlock m c t b hb s v')) v)
  · rw [mixAt_B m c t h0]
    refine funext fun (y : S1x256x1024.Idx) => ?_
    obtain ⟨u, p, v, rfl⟩ : ∃ (u : Fin 1) (p : Fin 256) (v : Fin 1024), y = ix3 u p v := ⟨y 0, y 1, y 2, eq_ix3 y⟩
    obtain ⟨b, hb⟩ : ∃ b : Fin 16, b.val = t.val / 8 := ⟨⟨t.val / 8, by omega⟩, rfl⟩
    obtain ⟨r, hr⟩ : ∃ r : Fin 2048, r.val = 256 * (t.val % 8) + p.val :=
      ⟨⟨256 * (t.val % 8) + p.val, by have := p.isLt; omega⟩, rfl⟩
    rw [View.read_apply, emb4 t u p v b r hb hr]
    show k0_pay4 (F := Ideal) (iblk m c 0 t) (iblk m c 1 t) (iblk m c 2 t)
        (outsAt0 m c (t.val - 1) (Nat.lt_of_le_of_lt (Nat.sub_le _ _) t.isLt)).2.2 (ix3 u p v)
      = mix (keyRow (m ((c : Thread nD τ).loc main_arg2)) b r) (wMat (m ((c : Thread nD τ).loc main_arg3))) (valMat (m ((c : Thread nD τ).loc main_arg0)) b) v
    exact (Body.pay4_apply (iblk m c 0 t) (iblk m c 1 t) (iblk m c 2 t)
        (outsAt0 m c (t.val - 1) (Nat.lt_of_le_of_lt (Nat.sub_le _ _) t.isLt)).2.2 u p v).trans
      (Body.mix_point (iblk m c 0 t) (iblk m c 1 t) (iblk m c 2 t) (m ((c : Thread nD τ).loc main_arg2)) (m ((c : Thread nD τ).loc main_arg3)) (m ((c : Thread nD τ).loc main_arg0))
        (outsAt0 m c (t.val - 1) (Nat.lt_of_le_of_lt (Nat.sub_le _ _) t.isLt)).2.2 b r p
        (keyBlock m c t b r p hb hr) (matBlock m c t) (valBlock m c t b hb)
        (fun s v' => cache_eq m c (t.val - 1) (Nat.lt_of_le_of_lt (Nat.sub_le _ _) t.isLt) b (by omega) s v') v)

/-! ## The blocks cover both arrays -/

theorem mem_blk3 (t : Fin cfg0.N) (i : S16x2048x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v1_0).slice (win0_3.rect t)).set ↔ _
  rw [View.set_slice_whole, Rect.mem_set_unit]
  exact Iff.rfl

theorem mem_blk4 (t : Fin cfg0.N) (i : S16x2048x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v1_1).slice (win0_4.rect t)).set ↔ _
  rw [View.set_slice_whole, Rect.mem_set_unit]
  exact Iff.rfl

/-- Index (b, r, ·) of the attention array lies in the block of point 8 · b + r / 256. -/
theorem cover3 (i : S16x2048x2048.Idx) : ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 2048 := (i 2).isLt
  have hN : cfg0.N = 128 := N_0
  obtain ⟨t, ht⟩ : ∃ t : Fin cfg0.N, t.val = 8 * (i 0).val + (i 1).val / 256 := ⟨⟨8 * (i 0).val + (i 1).val / 256, by omega⟩, rfl⟩
  obtain ⟨-, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- Index (b, r, ·) of the output array lies in the block of point 8 · b + r / 256. -/
theorem cover4 (i : S16x2048x1024.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  have hN : cfg0.N = 128 := N_0
  obtain ⟨t, ht⟩ : ∃ t : Fin cfg0.N, t.val = 8 * (i 0).val + (i 1).val / 256 := ⟨⟨8 * (i 0).val + (i 1).val / 256, by omega⟩, rfl⟩
  obtain ⟨-, -, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-! ## The arrays after the run, and the run -/

theorem attn_final (c : Dev nD) : (dats m 0 c).arrAt 3 cfg0.N = attnArr (m ((c : Thread nD τ).loc main_arg0)) (m ((c : Thread nD τ).loc main_arg2)) (m ((c : Thread nD τ).loc main_arg3)) :=
  (dats m 0 c).arrAt_eq_of_cover 3 (attnArr (m ((c : Thread nD τ).loc main_arg0)) (m ((c : Thread nD τ).loc main_arg2)) (m ((c : Thread nD τ).loc main_arg3))) (fun t _ => attn_flushed m c t) cover3

theorem mix_final (c : Dev nD) : (dats m 0 c).arrAt 4 cfg0.N = mixArr (m ((c : Thread nD τ).loc main_arg0)) (m ((c : Thread nD τ).loc main_arg2)) (m ((c : Thread nD τ).loc main_arg3)) :=
  (dats m 0 c).arrAt_eq_of_cover 4 (mixArr (m ((c : Thread nD τ).loc main_arg0)) (m ((c : Thread nD τ).loc main_arg2)) (m ((c : Thread nD τ).loc main_arg3))) (fun t _ => mix_flushed m c t) cover4

/-- Every weakly fair execution of the kernel's program ends with the attention array at `attnArr` and the output array
    at `mixArr` of the arguments, the arguments unchanged. -/
theorem run : θ_run defs (onTc (τ := τ) (main (F := Ideal))) ⟨m, fun _ => 0, ρ⟩ fun r => ∀ c : Dev nD,
      r.2.mem ((c : Thread nD τ).loc main_v1_0) = attnArr (m ((c : Thread nD τ).loc main_arg0)) (m ((c : Thread nD τ).loc main_arg2)) (m ((c : Thread nD τ).loc main_arg3))
      ∧ r.2.mem ((c : Thread nD τ).loc main_v1_1) = mixArr (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (attn_final m c), (h c).2.1.trans (mix_final m c), (h c).2.2⟩)
    (Value.run_blocks m ρ)

end Cert.KernelIdeal.Whole

end
-- ==== Proof.RefValue.lean ====
/-
  The reference's two results, read at an index, are `attnArr` and `mixArr` of its arguments.

  The reference's operations are read one at a time, in program order, at an index written by coordinates:
  the two contractions as sums over the contracted coordinate (the transposed values read at (b, v, s) are the
  values at (s, b, v)), the maximum over the last axis as a fold of max from -∞ — after which the softmax's own
  `max (-∞) ·` changes nothing, a maximum started from -∞ being at least -∞ —, the exponentials' sum as 0 + ∑,
  the keep-dims broadcasts as reads of the reduced array, and the last contraction against the batch-major values.
-/
import proofs.«158563_j1271310319936_2_alg».proof.Proof.Gen.ReferenceIdeal.Read
import proofs.«158563_j1271310319936_2_alg».proof.Proof.Spec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S2048x16x1024, .f32⟩ : BufTy).Contents (Elt Ideal)) (x2 : (⟨S16x2048x1024, .f32⟩ : BufTy).Contents (Elt Ideal))
  (x3 : (⟨S1024x1024, .f32⟩ : BufTy).Contents (Elt Ideal))

/-! ## The composed index functions, by coordinates -/

theorem i0 (b : Fin 16) (v : Fin 1024) (s : Fin 2048) : idx_main_v0 (ix3 b v s) = ix3 s b v := funext fun a => Fin.ext (by match a with | ⟨0, _⟩ => rfl | ⟨1, _⟩ => rfl | ⟨2, _⟩ => rfl)
theorem l1 (b : Fin 16) (r : Fin 2048) (v k : Fin 1024) : lidx_main_v1 (ix3 b r v) k = ix3 b r k := funext fun a => Fin.ext (by match a with | ⟨0, _⟩ => rfl | ⟨1, _⟩ => rfl | ⟨2, _⟩ => rfl)
theorem r1 (b : Fin 16) (r : Fin 2048) (v k : Fin 1024) : ridx_main_v1 (ix3 b r v) k = ix2 k v := funext fun a => Fin.ext (by match a with | ⟨0, _⟩ => rfl | ⟨1, _⟩ => rfl)
theorem l2 (b : Fin 16) (r s : Fin 2048) (v : Fin 1024) : lidx_main_v2 (ix3 b r s) v = ix3 b r v := funext fun a => Fin.ext (by match a with | ⟨0, _⟩ => rfl | ⟨1, _⟩ => rfl | ⟨2, _⟩ => rfl)
theorem r2 (b : Fin 16) (r s : Fin 2048) (v : Fin 1024) : ridx_main_v2 (ix3 b r s) v = ix3 b v s := funext fun a => Fin.ext (by match a with | ⟨0, _⟩ => rfl | ⟨1, _⟩ => rfl | ⟨2, _⟩ => rfl)
theorem i67 (b : Fin 16) (r s : Fin 2048) : idx_main_v6 (idx_main_v7 (ix3 b r s)) = ix2 b r := funext fun a => Fin.ext (by match a with | ⟨0, _⟩ => rfl | ⟨1, _⟩ => rfl)
theorem i10 (b : Fin 16) (r s : Fin 2048) : idx_main_v10 (ix2 b r) s = ix3 b r s := funext fun a => Fin.ext (by match a with | ⟨0, _⟩ => rfl | ⟨1, _⟩ => rfl | ⟨2, _⟩ => rfl)
theorem i1112 (b : Fin 16) (r s : Fin 2048) : idx_main_v11 (idx_main_v12 (ix3 b r s)) = ix2 b r := funext fun a => Fin.ext (by match a with | ⟨0, _⟩ => rfl | ⟨1, _⟩ => rfl)
theorem i14 (b : Fin 16) (s : Fin 2048) (v : Fin 1024) : idx_main_v14 (ix3 b s v) = ix3 s b v := funext fun a => Fin.ext (by match a with | ⟨0, _⟩ => rfl | ⟨1, _⟩ => rfl | ⟨2, _⟩ => rfl)
theorem l15 (b : Fin 16) (r s : Fin 2048) (v : Fin 1024) : lidx_main_v15 (ix3 b r v) s = ix3 b r s := funext fun a => Fin.ext (by match a with | ⟨0, _⟩ => rfl | ⟨1, _⟩ => rfl | ⟨2, _⟩ => rfl)
theorem r15 (b : Fin 16) (r s : Fin 2048) (v : Fin 1024) : ridx_main_v15 (ix3 b r v) s = ix3 b s v := funext fun a => Fin.ext (by match a with | ⟨0, _⟩ => rfl | ⟨1, _⟩ => rfl | ⟨2, _⟩ => rfl)

/-- The reduction's shape fact in the form that names the index with a coordinate put back. -/
theorem lastAxis : S16x2048x2048.Reduces [2] S16x2048 := by decide
theorem lift3 (b : Fin 16) (r s : Fin 2048) : lastAxis.lift (ix2 b r) s = ix3 b r s := funext fun a => Fin.ext (by match a with | ⟨0, _⟩ => rfl | ⟨1, _⟩ => rfl | ⟨2, _⟩ => rfl)

/-! ## Each operation at an index -/

theorem v0_at (b : Fin 16) (v : Fin 1024) (s : Fin 2048) : val_main_v0 (F := Ideal) x0 (ix3 b v s) = x0 (ix3 s b v) :=
  (val_main_v0_apply x0 (ix3 b v s)).trans (congrArg x0 (i0 b v s))

theorem v1_at (b : Fin 16) (r : Fin 2048) (v : Fin 1024) :
    val_main_v1 (F := Ideal) x2 x3 (ix3 b r v) = proj (keyRow x2 b r) (wMat x3) v := by
  refine (val_main_v1_apply x2 x3 (ix3 b r v)).trans ?_
  unfold proj
  exact Finset.sum_congr rfl fun k _ => by rw [l1 b r v k, r1 b r v k]

theorem v2_at (b : Fin 16) (r s : Fin 2048) :
    val_main_v2 (F := Ideal) x0 x2 x3 (ix3 b r s) = logit (keyRow x2 b r) (wMat x3) (valMat x0 b) s := by
  refine (val_main_v2_apply x0 x2 x3 (ix3 b r s)).trans ?_
  unfold logit
  exact Finset.sum_congr rfl fun v _ => by rw [l2 b r s v, r2 b r s v, v1_at, v0_at]

theorem v3_at (b : Fin 16) (r : Fin 2048) :
    val_main_v3 (F := Ideal) x0 x2 x3 (ix2 b r) = top (keyRow x2 b r) (wMat x3) (valMat x0 b) := by
  unfold val_main_v3
  refine (Host.reduce_eq_fold_single (FloatOps.maximumf : Ideal .f32 → Ideal .f32 → Ideal .f32)
    (val_main_v2 (F := Ideal) x0 x2 x3 : S16x2048x2048.Idx → Ideal .f32) (val_main_cst (F := Ideal) : S_.Idx → Ideal .f32)
    reducesTo_S16x2048x2048_S16x2048_d2 lastAxis h_S_ (ix2 b r)).trans ?_
  unfold top
  refine congrArg (fun f => (Finset.univ : Finset (Fin 2048)).fold max negInf f) (funext fun s => ?_)
  exact (congrArg (val_main_v2 (F := Ideal) x0 x2 x3) (lift3 b r s)).trans (v2_at x0 x2 x3 b r s)

theorem v5_at (b : Fin 16) (r : Fin 2048) :
    val_main_v5 (F := Ideal) x0 x2 x3 (ix2 b r) = top (keyRow x2 b r) (wMat x3) (valMat x0 b) := by
  rw [val_main_v5_apply, val_main_v4_apply, val_main_cst_0_apply, v3_at]
  exact max_top _ _ _

theorem v7_at (b : Fin 16) (r s : Fin 2048) :
    val_main_v7 (F := Ideal) x0 x2 x3 (ix3 b r s) = top (keyRow x2 b r) (wMat x3) (valMat x0 b) := by
  rw [val_main_v7_apply, val_main_v6_apply]
  exact (congrArg (val_main_v5 (F := Ideal) x0 x2 x3) (i67 b r s)).trans (v5_at x0 x2 x3 b r)

theorem v9_at (b : Fin 16) (r s : Fin 2048) :
    val_main_v9 (F := Ideal) x0 x2 x3 (ix3 b r s) = weight (keyRow x2 b r) (wMat x3) (valMat x0 b) s := by
  rw [val_main_v9_apply, val_main_v8_apply, v2_at, v7_at]
  rfl

theorem v10_at (b : Fin 16) (r : Fin 2048) :
    val_main_v10 (F := Ideal) x0 x2 x3 (ix2 b r) = mass (keyRow x2 b r) (wMat x3) (valMat x0 b) := by
  rw [val_main_v10_apply, val_main_cst_1_apply]
  show Ideal.ofBits .f32 0x00000000#32 + _ = _
  rw [Ideal.ofBits_zero_f32, zero_add]
  unfold mass
  exact Finset.sum_congr rfl fun s _ => (congrArg (val_main_v9 (F := Ideal) x0 x2 x3) (i10 b r s)).trans (v9_at x0 x2 x3 b r s)

theorem v12_at (b : Fin 16) (r s : Fin 2048) :
    val_main_v12 (F := Ideal) x0 x2 x3 (ix3 b r s) = mass (keyRow x2 b r) (wMat x3) (valMat x0 b) := by
  rw [val_main_v12_apply, val_main_v11_apply]
  exact (congrArg (val_main_v10 (F := Ideal) x0 x2 x3) (i1112 b r s)).trans (v10_at x0 x2 x3 b r)

theorem v13_at (b : Fin 16) (r s : Fin 2048) :
    val_main_v13 (F := Ideal) x0 x2 x3 (ix3 b r s) = attn (keyRow x2 b r) (wMat x3) (valMat x0 b) s := by
  rw [val_main_v13_apply, v9_at, v12_at]
  rfl

theorem v14_at (b : Fin 16) (s : Fin 2048) (v : Fin 1024) : val_main_v14 (F := Ideal) x0 (ix3 b s v) = x0 (ix3 s b v) :=
  (val_main_v14_apply x0 (ix3 b s v)).trans (congrArg x0 (i14 b s v))

theorem v15_at (b : Fin 16) (r : Fin 2048) (v : Fin 1024) :
    val_main_v15 (F := Ideal) x0 x2 x3 (ix3 b r v) = mix (keyRow x2 b r) (wMat x3) (valMat x0 b) v := by
  refine (val_main_v15_apply x0 x2 x3 (ix3 b r v)).trans ?_
  unfold mix
  exact Finset.sum_congr rfl fun s _ => by rw [l15 b r s v, r15 b r s v, v13_at, v14_at]

/-! ## The two results -/

theorem attn_ref : val_main_v13 (F := Ideal) x0 x2 x3 = attnArr x0 x2 x3 := by
  funext i
  obtain ⟨b, r, s, rfl⟩ : ∃ (b : Fin 16) (r s : Fin 2048), i = ix3 b r s := ⟨i 0, i 1, i 2, eq_ix3 i⟩
  exact v13_at x0 x2 x3 b r s

theorem mix_ref : val_main_v15 (F := Ideal) x0 x2 x3 = mixArr x0 x2 x3 := by
  funext i
  obtain ⟨b, r, v, rfl⟩ : ∃ (b : Fin 16) (r : Fin 2048) (v : Fin 1024), i = ix3 b r v := ⟨i 0, i 1, i 2, eq_ix3 i⟩
  exact v15_at x0 x2 x3 b r v

end Cert.ReferenceIdeal.RefValue

end
-- ==== Proof.lean ====
/-
  Softmax attention over a projected key, tile by tile, against the same computation written with whole-array
  contractions.

  Both programs take time-major values [2048, 16, 1024], a mask they do not read, keys [16, 2048, 1024] and a
  projection matrix [1024, 1024], and return, for every batch b and key row r,
    attn (b, r, s) = exp (logit s - max logit) / ∑ exp (logit · - max logit),   logit s = ∑ v (∑ k keys (b, r, k) w (k, v)) values (s, b, v)
    out  (b, r, v) = ∑ s attn (b, r, s) values (s, b, v)
  (Proof/Spec.lean). Over the extended reals a change of float format is the identity, a matrix product into a zero
  accumulator and the host's contraction are the same sum, and a row maximum is a fold of max from -∞ on both sides,
  so the two programs compute ONE function index by index and no finiteness of the inputs is used:
    - the kernel: each grid point writes back its 256-row block of both results, its cache of the batch's values
      being right after every point (Proof/Body.lean, Proof/Pieces.lean, Proof/Whole.lean);
    - the reference: its operations read one at a time (Proof/RefValue.lean).
  The three frame claims are the generated frame runs; the idealization rewrote nothing, so `preserves` is trivial.
-/
import proofs.«158563_j1271310319936_2_alg».proof.Defs
import proofs.«158563_j1271310319936_2_alg».proof.Proof.Gen.Kernel
import proofs.«158563_j1271310319936_2_alg».proof.Proof.Gen.Kernel.Skeleton
import proofs.«158563_j1271310319936_2_alg».proof.Proof.Gen.Kernel.Launch
import proofs.«158563_j1271310319936_2_alg».proof.Proof.Gen.Kernel.Points
import proofs.«158563_j1271310319936_2_alg».proof.Proof.Gen.Kernel.Frame
import proofs.«158563_j1271310319936_2_alg».proof.Proof.Gen.KernelIdeal
import proofs.«158563_j1271310319936_2_alg».proof.Proof.Gen.KernelIdeal.Skeleton
import proofs.«158563_j1271310319936_2_alg».proof.Proof.Gen.KernelIdeal.Launch
import proofs.«158563_j1271310319936_2_alg».proof.Proof.Gen.KernelIdeal.Points
import proofs.«158563_j1271310319936_2_alg».proof.Proof.Gen.KernelIdeal.Frame
import proofs.«158563_j1271310319936_2_alg».proof.Proof.Gen.ReferenceIdeal
import proofs.«158563_j1271310319936_2_alg».proof.Proof.Gen.KernelIdeal.Value
import proofs.«158563_j1271310319936_2_alg».proof.Proof.Gen.ReferenceIdeal.Run
import proofs.«158563_j1271310319936_2_alg».proof.Proof.Gen.ReferenceIdeal.Read
import proofs.«158563_j1271310319936_2_alg».proof.Proof.Gen.Pre_finite_inputs
import proofs.«158563_j1271310319936_2_alg».proof.Proof.Whole
import proofs.«158563_j1271310319936_2_alg».proof.Proof.RefValue
import Idealize.ShloMosaic.Adequacy
import Idealize.ShloMosaic.Init

noncomputable section

namespace Cert.Proof

open Idealize.ShloMosaic Idealize.ShloMosaic.TcCoe Idealize.SL.Sem Cert.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals the kernel's two arrays end at `attnArr` and `mixArr` of its arguments, the reference's two
    results are the same two functions of arguments that agree. -/
theorem algebraic : Cert.algebraic_KernelIdeal_ReferenceIdeal := by
  intro m ρ m' ρ' _ hagree
  refine ⟨fun c => attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => mixArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Whole.run m ρ, ?_⟩
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v13_eq, Cert.ReferenceIdeal.RefValue.attn_ref,
      (hagree c).1, (hagree c).2.2.1, (hagree c).2.2.2]
  · rw [(h c).2.1, Cert.ReferenceIdeal.Read.val_main_v15_eq, Cert.ReferenceIdeal.RefValue.mix_ref,
      (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
